-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x64x64 : Shape := ⟨4, ![128, 64, 64, 64]⟩
abbrev S64x64 : Shape := ⟨2, ![64, 64]⟩
abbrev S64 : Shape := ⟨1, ![64]⟩
abbrev S4096x4096 : Shape := ⟨2, ![4096, 4096]⟩
abbrev S4096 : Shape := ⟨1, ![4096]⟩
abbrev S_ : Shape := ⟨0, ![]⟩

class Facts : Prop where
  bcast_S_S128x64x64x64 : S_.BroadcastsInDim S128x64x64x64 (![] : Fin 0 → Fin S128x64x64x64.rank)
  reducesTo_S128x64x64x64_S_d0_1_2_3 : S128x64x64x64.ReducesTo [0, 1, 2, 3] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part3 {F : FTy → Type} [FloatOps F] (main_arg11 : FVec F S4096x4096 .f32) (main_arg12 : FVec F S4096 .f32) (main_v48 : IVec S_ 1) (main_v49 : FVec F S4096 .f32) (main_v50 : FVec F S4096 .f32) : IVec S_ 1 :=
  let main_v51 : IVec S4096 1 := cmpf .olt main_v49 main_v50
  let main_c_19 : IVec S_ 1 := constantI S_ 1 1#1
  let main_v52 : IVec S_ 1 := (fun x v => Host.reduce IntOp.andi x v reducesTo_S4096_S_d0 h_S_) main_v51 main_c_19
  let main_v53 : IVec S_ 1 := andi main_v48 main_v52
  let main_v54 : FVec F S4096x4096 .f32 := Host.absf main_arg11
  let main_cst_20 : FVec F S_ .f32 := constant S_ .f32 0x7F800000#32
  let main_v55 : FVec F S4096x4096 .f32 := broadcastInDim S4096x4096 ![] bcast_S_S4096x4096 main_cst_20
  let main_v56 : IVec S4096x4096 1 := cmpf .olt main_v54 main_v55
  let main_c_21 : IVec S_ 1 := constantI S_ 1 1#1
  let main_v57 : IVec S_ 1 := (fun x v => Host.reduce IntOp.andi x v reducesTo_S4096x4096_S_d0_1 h_S_) main_v56 main_c_21
  let main_v58 : IVec S_ 1 := andi main_v53 main_v57
  let main_v59 : FVec F S4096 .f32 := Host.absf main_arg12
  let main_cst_22 : FVec F S_ .f32 := constant S_ .f32 0x7F800000#32
  let main_v60 : FVec F S4096 .f32 := broadcastInDim S4096 ![] bcast_S_S4096 main_cst_22
  let main_v61 : IVec S4096 1 := cmpf .olt main_v59 main_v60
  let main_c_23 : IVec S_ 1 := constantI S_ 1 1#1
  let main_v62 : IVec S_ 1 := (fun x v => Host.reduce IntOp.andi x v reducesTo_S4096_S_d0 h_S_) main_v61 main_c_23
  let main_v63 : IVec S_ 1 := andi main_v58 main_v62
  main_v63

def fn_part2 {F : FTy → Type} [FloatOps F] (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_v33 : IVec S_ 1) : IVec S_ 1 :=
  let main_v34 : FVec F S4096x4096 .f32 := Host.absf main_arg7
  let main_cst_12 : FVec F S_ .f32 := constant S_ .f32 0x7F800000#32
  let main_v35 : FVec F S4096x4096 .f32 := broadcastInDim S4096x4096 ![] bcast_S_S4096x4096 main_cst_12
  let main_v36 : IVec S4096x4096 1 := cmpf .olt main_v34 main_v35
  let main_c_13 : IVec S_ 1 := constantI S_ 1 1#1
  let main_v37 : IVec S_ 1 := (fun x v => Host.reduce IntOp.andi x v reducesTo_S4096x4096_S_d0_1 h_S_) main_v36 main_c_13
  let main_v38 : IVec S_ 1 := andi main_v33 main_v37
  let main_v39 : FVec F S4096 .f32 := Host.absf main_arg8
  let main_cst_14 : FVec F S_ .f32 := constant S_ .f32 0x7F800000#32
  let main_v40 : FVec F S4096 .f32 := broadcastInDim S4096 ![] bcast_S_S4096 main_cst_14
  let main_v41 : IVec S4096 1 := cmpf .olt main_v39 main_v40
  let main_c_15 : IVec S_ 1 := constantI S_ 1 1#1
  let main_v42 : IVec S_ 1 := (fun x v => Host.reduce IntOp.andi x v reducesTo_S4096_S_d0 h_S_) main_v41 main_c_15
  let main_v43 : IVec S_ 1 := andi main_v38 main_v42
  let main_v44 : FVec F S4096x4096 .f32 := Host.absf main_arg9
  let main_cst_16 : FVec F S_ .f32 := constant S_ .f32 0x7F800000#32
  let main_v45 : FVec F S4096x4096 .f32 := broadcastInDim S4096x4096 ![] bcast_S_S4096x4096 main_cst_16
  let main_v46 : IVec S4096x4096 1 := cmpf .olt main_v44 main_v45
  let main_c_17 : IVec S_ 1 := constantI S_ 1 1#1
  let main_v47 : IVec S_ 1 := (fun x v => Host.reduce IntOp.andi x v reducesTo_S4096x4096_S_d0_1 h_S_) main_v46 main_c_17
  let main_v48 : IVec S_ 1 := andi main_v43 main_v47
  let main_v49 : FVec F S4096 .f32 := Host.absf main_arg10
  let main_cst_18 : FVec F S_ .f32 := constant S_ .f32 0x7F800000#32
  let main_v50 : FVec F S4096 .f32 := broadcastInDim S4096 ![] bcast_S_S4096 main_cst_18
  fn_part3 (F := F) main_arg11 main_arg12 main_v48 main_v49 main_v50

def fn_part1 {F : FTy → Type} [FloatOps F] (main_arg4 : FVec F S64 .f32) (main_arg5 : FVec F S64x64 .f32) (main_arg6 : FVec F S64 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg5
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S128x64x64x64 .f32) (main_arg1 : FVec F S64x64 .f32) (main_arg2 : FVec F S64 .f32) (main_arg3 : FVec F S64x64 .f32) (main_arg4 : FVec F S64 .f32) (main_arg5 : FVec F S64x64 .f32) (main_arg6 : FVec F S64 .f32) (main_arg7 : FVec F S4096x4096 .f32) (main_arg8 : FVec F S4096 .f32) (main_arg9 : FVec F S4096x4096 .f32) (main_arg10 : FVec F S4096 .f32) (main_arg11 : FVec F S4096x4096 .f32) (main_arg12 : FVec F S4096 .f32) : IVec S_ 1 :=
  let main_v0 : FVec F S128x64x64x64 .f32 := Host.absf main_arg0
  let main_cst : FVec F S_ .f32 := constant S_ .f32 0x7F800000#32
  let main_v1 : FVec F S128x64x64x64 .f32 := broadcastInDim S128x64x64x64 ![] bcast_S_S128x64x64x64 main_cst
  let main_v2 : IVec S128x64x64x64 1 := cmpf .olt main_v0 main_v1
  let main_c : IVec S_ 1 := constantI S_ 1 1#1
  let main_v3 : IVec S_ 1 := (fun x v => Host.reduce IntOp.andi x v reducesTo_S128x64x64x64_S_d0_1_2_3 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_v13 main_v16
-- ==== Kernel.lean ====
abbrev S128x64x64x64 : Shape := ⟨4, ![128, 64, 64, 64]⟩
abbrev S64x64 : Shape := ⟨2, ![64, 64]⟩
abbrev S64 : Shape := ⟨1, ![64]⟩
abbrev S4096x4096 : Shape := ⟨2, ![4096, 4096]⟩
abbrev S4096 : Shape := ⟨1, ![4096]⟩
abbrev S8192x4096 : Shape := ⟨2, ![8192, 4096]⟩
abbrev S256x4096 : Shape := ⟨2, ![256, 4096]⟩

abbrev nBuf : Space → Nat
  | .hbm => 16
  | .vmem => 4
  | .smem => 0
  | _ => 0

abbrev bufTy : (tb : Table) → Fin (tcTables nBuf tb) → BufTy
  | .hbm, ⟨0, _⟩ => ⟨S128x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S8192x4096, .f32⟩
  | .hbm, ⟨14, _⟩ => ⟨S8192x4096, .f32⟩
  | .hbm, ⟨15, _⟩ => ⟨S128x64x64x64, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | _, _ => ⟨S128x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S128x64x64x64_S8192x4096 : S128x64x64x64.ShapeCasts S8192x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S8192x4096_S128x64x64x64 : S8192x4096.ShapeCasts S128x64x64x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S8192x4096.size a
  hwx0_0 : ∀ i : grid0.Coords, EltTy.bits .f32 = 32 ∨ (Rect.block (s := S8192x4096) S256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S8192x4096.size a
  hwx0_1 : ∀ i : grid0.Coords, EltTy.bits .f32 = 32 ∨ (Rect.block (s := S8192x4096) S256x4096.size (cc0_transform_1 i) (hinb0_1 i)).WholeWords (EltTy.packing .f32)

variable [Facts₀]

abbrev win0_0 : Pipeline.Window sig grid0 :=
  Pipeline.Window.ofSpec (Memref.whole main_v0) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S128x64x64x64 : Shape := ⟨4, ![128, 64, 64, 64]⟩
abbrev S64x64 : Shape := ⟨2, ![64, 64]⟩
abbrev S64 : Shape := ⟨1, ![64]⟩
abbrev S4096x4096 : Shape := ⟨2, ![4096, 4096]⟩
abbrev S4096 : Shape := ⟨1, ![4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S128x64x64x64, .f32⟩
  | .hbm, ⟨1, _⟩ => ⟨S64x64, .f32⟩
  | .hbm, ⟨2, _⟩ => ⟨S64, .f32⟩
  | .hbm, ⟨3, _⟩ => ⟨S64x64, .f32⟩
  | .hbm, ⟨4, _⟩ => ⟨S64, .f32⟩
  | .hbm, ⟨5, _⟩ => ⟨S64x64, .f32⟩
  | .hbm, ⟨6, _⟩ => ⟨S64, .f32⟩
  | .hbm, ⟨7, _⟩ => ⟨S4096x4096, .f32⟩
  | .hbm, ⟨8, _⟩ => ⟨S4096, .f32⟩
  | .hbm, ⟨9, _⟩ => ⟨S4096x4096, .f32⟩
  | .hbm, ⟨10, _⟩ => ⟨S4096, .f32⟩
  | .hbm, ⟨11, _⟩ => ⟨S4096x4096, .f32⟩
  | .hbm, ⟨12, _⟩ => ⟨S4096, .f32⟩
  | .hbm, ⟨13, _⟩ => ⟨S128x64x64x64, .f32⟩
  | .hbm, ⟨14, _⟩ => ⟨S128x64x64x64, .f32⟩
  | .hbm, ⟨15, _⟩ => ⟨S128x64x64x64, .f32⟩
  | .hbm, ⟨16, _⟩ => ⟨S_, .f32⟩
  | .hbm, ⟨17, _⟩ => ⟨S128x64x64x64, .f32⟩
  | .hbm, ⟨18, _⟩ => ⟨S128x64x64x64, .f32⟩
  | .hbm, ⟨19, _⟩ => ⟨S_, .f32⟩
  | .hbm, ⟨20, _⟩ => ⟨S128x64x64x64, .f32⟩
  | .hbm, ⟨21, _⟩ => ⟨S128x64x64x64, .f32⟩
  | .hbm, ⟨22, _⟩ => ⟨S128x64x64x64, .f32⟩
  | .hbm, ⟨23, _⟩ => ⟨S128x64x64x64, .f32⟩
  | _, _ => ⟨S128x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_cst : Ref sig .tc := ⟨.hbm, 16, rfl⟩
abbrev main_v3 : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩

abbrev nD : Nat := 1
abbrev τ : Topo := Topo.v7x

variable {F : FTy → Type} [FloatOps F]

class Facts₀ : Prop where
  bcast_S_S128x64x64x64 : S_.BroadcastsInDim S128x64x64x64 (![] : Fin 0 → Fin S128x64x64x64.rank)

variable [Facts₀]

class Facts : Prop extends Facts₀ where

variable [Facts]
-- ==== Proof.LibSigmoidGate.lean ====
/-
  The sigmoid gate on the extended reals.

  With σ(y) = 1 / (1 + e^(−y)) (and its limits σ(−∞) = 0, σ(+∞) = 1), the FOLDED gate  x · (1 + σ(2·x))  and the
  EXPANDED gate  x + x · σ(x + x)  are one function of x on every extended real, the two infinities included:
  2·x = x + x everywhere, and x · (1 + s) = x + x · s for s = σ(x + x), which is a real in [0, 1] when x is real,
  0 at x = −∞ (both sides −∞) and 1 at x = +∞ (both sides +∞). No finiteness of x is needed.

  Stated twice: on `EReal` (`mul_one_add_logistic`, `two_mul_eq`), and over the float operations read at the
  exact instance (`gate_eq_expanded`: the folded form in a kernel's operations — `mulf`, `addf`, `logistic` and the
  f32 literals 2.0 and 1.0 — against the expanded form in a host program's — `addf`, `mulf`, `hostDivf`,
  `hostUnary .exp`, `hostNegf` and the literal 1.0). Imports no program.
-/
import Idealize.ShloMosaic.PureOps.Ideal

noncomputable section

namespace Cert.SigmoidGate

open Idealize.ShloMosaic

variable {F : FTy → Type} [FloatOps F]

/-- The folded gate on one f32 value: `a · (1 + logistic (2 · a))`, the literals 1.0 and 2.0 as their bit patterns. -/
def gate (a : F .f32) : F .f32 :=
  FloatOps.mulf a (FloatOps.addf (FloatOps.ofBits .f32 0x3F800000#32)
    (FloatOps.logistic (FloatOps.mulf (FloatOps.ofBits .f32 0x40000000#32) a)))

/-- The expanded gate on one f32 value, in a host program's operations: `a + a · (1 / (1 + exp (−(a + a))))`. -/
def gateExpanded (a : F .f32) : F .f32 :=
  FloatOps.addf a (FloatOps.mulf a (FloatOps.hostDivf (FloatOps.ofBits .f32 0x3F800000#32)
    (FloatOps.addf (FloatOps.ofBits .f32 0x3F800000#32) (FloatOps.hostUnary .exp (FloatOps.hostNegf (FloatOps.addf a a))))))

/-- The f32 pattern of 1.0 denotes the real 1. -/
theorem ofBits_one : Ideal.ofBits .f32 0x3F800000#32 = 1 := by
  simp [Ideal.ofBits, Ideal.ieee, -EReal.coe_mul]; norm_num

/-- The f32 pattern of 2.0 denotes the real 2. -/
theorem ofBits_two : Ideal.ofBits .f32 0x40000000#32 = ((2 : ℝ) : EReal) := by
  simp [Ideal.ofBits, Ideal.ieee, -EReal.coe_mul]; norm_num

/-- Doubling is adding to itself, at the infinities too. -/
theorem two_mul_eq (x : EReal) : ((2 : ℝ) : EReal) * x = x + x := by
  induction x using EReal.rec with
  | bot => rw [EReal.coe_mul_bot_of_pos (by norm_num : (0 : ℝ) < 2), EReal.bot_add]
  | coe r => rw [← EReal.coe_mul, ← EReal.coe_add, two_mul]
  | top => rw [EReal.coe_mul_top_of_pos (by norm_num : (0 : ℝ) < 2), EReal.top_add_top]

/-- x · (1 + σ(x + x)) = x + x · σ(x + x): distributivity holds here although it fails on the extended reals in
    general, because σ(x + x) is a real when x is, and at x = ∓∞ it is 0, 1 and both sides are ∓∞. -/
theorem mul_one_add_logistic (x : EReal) :
    x * (1 + Ideal.logistic (x + x)) = x + x * Ideal.logistic (x + x) := by
  induction x using EReal.rec with
  | bot => simp
  | coe r =>
    rw [← EReal.coe_add, Ideal.logistic_coe, ← EReal.coe_one, ← EReal.coe_add, ← EReal.coe_mul, ← EReal.coe_mul,
      ← EReal.coe_add, mul_add, mul_one]
  | top =>
    rw [EReal.top_add_top, Ideal.logistic_top, mul_one, EReal.top_add_top]
    exact EReal.top_mul_of_pos (by norm_num)

/-- The folded gate is the expanded gate, on every extended real. -/
theorem gate_eq_expanded (x : Ideal .f32) : gate x = gateExpanded x := by
  show x * (Ideal.ofBits .f32 0x3F800000#32 + Ideal.logistic (Ideal.ofBits .f32 0x40000000#32 * x))
    = x + x * Ideal.div (Ideal.ofBits .f32 0x3F800000#32) (Ideal.ofBits .f32 0x3F800000#32 + Ideal.exp (-(x + x)))
  rw [ofBits_one, ofBits_two, two_mul_eq]
  exact mul_one_add_logistic x

end Cert.SigmoidGate

end
-- ==== Proof.KernelValue.lean ====
/-
  What the idealized kernel program leaves in its result, as one function of its first argument.

  The program views the argument x : f32[128, 64, 64, 64] as a matrix x' : f32[8192, 4096] (a reshape: the same elements
  in row-major order), runs the kernel over 32 blocks of 256 whole rows, and views the matrix it wrote as
  f32[128, 64, 64, 64] again. The kernel body is pointwise: each element a of a block is replaced by
  gate a = a · (1 + logistic (2 · a)). Block t of the input and block t of the output are the same rows
  256·t … 256·t + 255, and the 32 output blocks tile the matrix, so the matrix written is gate applied to every element
  of x'. A pointwise map commutes with a reshape, and the reshape there and back is the identity, so the result is gate
  applied to every element of x (`result`, `run`). Everything here holds for any float instance.
-/
import proofs.«139646_j38783554683567_2_alg».proof.Proof.Gen.KernelIdeal.Frame
import proofs.«139646_j38783554683567_2_alg».proof.Proof.LibSigmoidGate
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.StableHlo
open Idealize.ShloMosaic.Pipeline (Dat)

namespace Cert.KernelIdeal.GateValue

open Cert.KernelIdeal Cert.KernelIdeal.Gen Cert.SigmoidGate

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

/-- The gate applied to every element of a matrix. -/
abbrev gateRows (a : S8192x4096.Idx → Elt F .f32) : S8192x4096.Idx → Elt F .f32 := fun j => gate (F := F) (a j)

/-- The body's one stored value is the gate of each loaded element: the body's shape cast is to the block's own
    shape, and the rest is pointwise. -/
theorem pay_eq (x0 : Vec F S256x4096 .f32) : k0_pay1 x0 = fun j => gate (F := F) (x0 j) := by
  unfold k0_pay1
  simp only [shapeCast_self]
  rfl

/-- The two windows' index maps agree at every grid point: both take block (t, 0). -/
theorem idx_facts : ∀ t : Fin cfg0.N, win0_0.index t (0 : Fin 2) = win0_1.index t (0 : Fin 2)
    ∧ win0_0.index t (1 : Fin 2) = win0_1.index t (1 : Fin 2) :=
  (by decide +kernel : ∀ t : Fin grid0.N, _)

/-- Every block of rows is some grid point's. -/
theorem idx_onto : ∀ (q0 : Fin 32) (q1 : Fin 1), ∃ t : Fin cfg0.N, win0_1.index t = ![q0.val, q1.val] :=
  (by decide +kernel : ∀ (q0 : Fin 32) (q1 : Fin 1), ∃ t : Fin grid0.N, win0_1.index t = ![q0.val, q1.val])

/-- What grid point `t` writes back is block `t` of the gate applied to the matrix the region finds. -/
theorem flushed_eq (c : Dev nD) (t : Fin cfg0.N) :
    (dats m 0 c).flushed 1 t = ((cfg0.win 1).blk t).view.read (Elt F) (gateRows (V m c main_v0)) := by
  show (cfg0.win 1).cut (grid0.coords t) ((dats m 0 c).after 1 t) = _
  rw [after0_1]
  unfold out0_1
  rw [View.canon_unit_zero hz]
  simp only [View.ld_unit_zero (S := S256x4096) hz]
  rw [pay_eq]
  obtain ⟨e0, e1⟩ := idx_facts t
  funext j
  show gate (F := F) (V m c main_v0 (((cfg0.win 0).blk t).view.emb j)) = gate (F := F) (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 256 + 1 * (j 0).val = win0_1.index t (0 : Fin 2) * 256 + 1 * (j 0).val; omega
    | ⟨1, _⟩ => show win0_0.index t (1 : Fin 2) * 4096 + 1 * (j 1).val = win0_1.index t (1 : Fin 2) * 4096 + 1 * (j 1).val; omega
  rw [h0]

/-- An index of the matrix is in grid point `t`'s block iff each coordinate is in the block's range on its axis. -/
theorem mem_blk (t : Fin cfg0.N) (i : S8192x4096.Idx) :
    i ∈ ((cfg0.win 1).blk t).view.set ↔ ∀ a : Fin 2, win0_1.index t a * S256x4096.size a ≤ (i a).val ∧ (i a).val < win0_1.index t a * S256x4096.size a + S256x4096.size a := by
  show i ∈ ((View.whole main_v1).slice (win0_1.rect t)).set ↔ _
  rw [View.set_slice_whole, Rect.mem_set_unit]
  exact Iff.rfl

/-- The blocks tile the matrix: row r is in the block of the grid point that takes rows 256·(r / 256) and on. -/
theorem cover (i : S8192x4096.Idx) :
    ∃ t : Fin cfg0.N, (cfg0.win 1).flush t = true ∧ i ∈ ((cfg0.win 1).blk t).view.set := by
  have hi0 : (i 0).val < 8192 := (i 0).isLt
  have hi1 : (i 1).val < 4096 := (i 1).isLt
  obtain ⟨t, ht⟩ := idx_onto ⟨(i 0).val / 256, by omega⟩ ⟨(i 1).val / 4096, by omega⟩
  have q0 : win0_1.index t (0 : Fin 2) = (i 0).val / 256 := congrFun ht 0
  have q1 : win0_1.index t (1 : Fin 2) = (i 1).val / 4096 := congrFun ht 1
  refine ⟨t, flush0_1 t, ?_⟩
  rw [mem_blk]
  intro a
  match a with
  | ⟨0, _⟩ => show win0_1.index t (0 : Fin 2) * 256 ≤ (i 0).val ∧ (i 0).val < win0_1.index t (0 : Fin 2) * 256 + 256; omega
  | ⟨1, _⟩ => show win0_1.index t (1 : Fin 2) * 4096 ≤ (i 1).val ∧ (i 1).val < win0_1.index t (1 : Fin 2) * 4096 + 4096; omega

/-- The matrix after the region: the gate of every element of the matrix the region found. -/
theorem final (c : Dev nD) : (dats m 0 c).arrAt 1 cfg0.N = gateRows (V m c main_v0) :=
  (dats m 0 c).arrAt_eq_of_cover 1 (gateRows (V m c main_v0)) (fun t _ => flushed_eq m c t) cover

/-- The matrix the region finds is the argument in row-major order at the matrix's shape. -/
theorem V_main_v0 (c : Dev nD) : (V m c main_v0 : S8192x4096.Idx → Elt F .f32)
    = shapeCast S8192x4096 (m ((c : Thread nD τ).loc main_arg0)) shapeCasts_S128x64x64x64_S8192x4096 := by
  show StableHlo.after hostOps0 (fun b => m (c, b)) (Proc.devRef .tc main_v0) = _
  after_results
  rfl

/-- A pointwise map commutes with a change of shape. -/
theorem shapeCast_map {s t : Shape} {α β : Type} (p : α → β) (v : s.Idx → α) (h : s.ShapeCasts t) :
    shapeCast t (fun j => p (v j)) h = fun i => p (shapeCast t v h i) := rfl

/-- The program's result: the gate of every element of the argument. -/
theorem result (c : Dev nD) :
    Pipeline.afterTail₀ cfgs (dats m) 0 (V0 m) [hostOps1] c main_v2
      = fun i => gate (F := F) (m ((c : Thread nD τ).loc main_arg0) i) := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = gateRows (shapeCast S8192x4096 (m ((c : Thread nD τ).loc main_arg0)) shapeCasts_S128x64x64x64_S8192x4096) :=
    (Pipeline.withArrays_arr spec0 launch0.win.arr_inj c _ _ 1).trans ((final m c).trans (by rw [V_main_v0]))
  rw [hw]
  funext i
  show gate (F := F) (shapeCast S128x64x64x64 (shapeCast S8192x4096 (m ((c : Thread nD τ).loc main_arg0)) shapeCasts_S128x64x64x64_S8192x4096) shapeCasts_S8192x4096_S128x64x64x64 i) = _
  rw [shapeCast_shapeCast]

/-- The run, read: every weakly fair execution of the program terminates with its result at the gate of every element of
    the first argument, and every argument as launched. -/
theorem run : θ_run defs (onTc (τ := τ) (main (F := F))) ⟨m, fun _ => 0, ρ⟩ fun r => ∀ c : Dev nD,
      r.2.mem ((c.tc : Thread nD τ).loc main_v2) = (fun i => gate (F := F) (m ((c.tc : Thread nD τ).loc main_arg0) i))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun r h c => ⟨((h c).2 main_v2 (Pipeline.mem_restRefs_of main_v2 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c),
      ((h c).2 main_arg12 (Pipeline.mem_restRefs_of main_arg12 (by decide) (by decide))).trans (W_main_arg12 m (dats m) c)⟩)
    (run_main m ρ)

end Cert.KernelIdeal.GateValue

end
-- ==== Proof.RefValue.lean ====
/-
  The idealized reference's result, as one function of its first argument: at the exact instance the reference
  computes, element by element, a + a · (1 / (1 + exp (−(a + a)))) — the expanded sigmoid gate — which is the folded gate
  a · (1 + logistic (2 · a)) on every extended real.
-/
import proofs.«139646_j38783554683567_2_alg».proof.Proof.Gen.ReferenceIdeal.Read
import proofs.«139646_j38783554683567_2_alg».proof.Proof.LibSigmoidGate

noncomputable section

open Idealize.ShloMosaic

namespace Cert.ReferenceIdeal.GateValue

open Cert.ReferenceIdeal Cert.ReferenceIdeal.Gen Cert.ReferenceIdeal.Read Cert.SigmoidGate

/-- Each element of the reference's result is the expanded gate of the same element of the argument, and the expanded
    gate is the folded gate. -/
theorem ref_eq (x : (⟨S128x64x64x64, .f32⟩ : BufTy).Contents (Elt Ideal)) :
    val_main_v8 (F := Ideal) x = fun i => gate (F := Ideal) (x i) := by
  funext i
  rw [gate_eq_expanded]
  rfl

end Cert.ReferenceIdeal.GateValue

end
-- ==== Proof.lean ====
/-
  The proof of `Cert.Claim` (proofs.«139646_j38783554683567_2_alg».proof.Defs).

  The kernel program computes, for x : f32[128, 64, 64, 64], the gate x · (1 + logistic (2 · x)) element by element: it
  views x as a matrix of 8192 rows, lets 32 grid points each rewrite 256 whole rows in place, and views the matrix as
  the four-axis array again. The reference computes x + x · (1 / (1 + exp (−(x + x)))) element by element on the host.

  * The three frames: the kernel programs' are the generated frame certificates; the reference's is its generated run
    with the result dropped.
  * `preserves`: the ideal pass rewrote nothing, so there is nothing to state.
  * `algebraic`: the idealized kernel's result is the gate of every element of its first argument
    (Proof/KernelValue.lean: the block written at a grid point is that block of the gate of the matrix, the blocks
    tile the matrix, and a pointwise map commutes with the two changes of shape, which cancel); the idealized
    reference's result is the same function (Proof/RefValue.lean), because on every extended real a,
    a · (1 + σ(2·a)) = a + a · σ(a + a) with σ(y) = 1 / (1 + e^(−y)) (Proof/LibSigmoidGate.lean: 2·a = a + a, and the
    product distributes because σ(a + a) is a real for real a and is 0, 1 at a = −∞, +∞, where both sides are the same
    infinity). The law holds at the infinities too, so the finiteness of the inputs is not used.
-/
import proofs.«139646_j38783554683567_2_alg».proof.Defs
import proofs.«139646_j38783554683567_2_alg».proof.Proof.Gen.Kernel
import proofs.«139646_j38783554683567_2_alg».proof.Proof.Gen.Kernel.Skeleton
import proofs.«139646_j38783554683567_2_alg».proof.Proof.Gen.Kernel.Launch
import proofs.«139646_j38783554683567_2_alg».proof.Proof.Gen.Kernel.Points
import proofs.«139646_j38783554683567_2_alg».proof.Proof.Gen.Kernel.Frame
import proofs.«139646_j38783554683567_2_alg».proof.Proof.Gen.KernelIdeal
import proofs.«139646_j38783554683567_2_alg».proof.Proof.Gen.KernelIdeal.Skeleton
import proofs.«139646_j38783554683567_2_alg».proof.Proof.Gen.KernelIdeal.Launch
import proofs.«139646_j38783554683567_2_alg».proof.Proof.Gen.KernelIdeal.Points
import proofs.«139646_j38783554683567_2_alg».proof.Proof.Gen.KernelIdeal.Frame
import proofs.«139646_j38783554683567_2_alg».proof.Proof.Gen.ReferenceIdeal
import proofs.«139646_j38783554683567_2_alg».proof.Proof.Gen.ReferenceIdeal.Run
import proofs.«139646_j38783554683567_2_alg».proof.Proof.Gen.ReferenceIdeal.Read
import proofs.«139646_j38783554683567_2_alg».proof.Proof.Gen.Pre_finite_inputs
import proofs.«139646_j38783554683567_2_alg».proof.Proof.LibSigmoidGate
import proofs.«139646_j38783554683567_2_alg».proof.Proof.KernelValue
import proofs.«139646_j38783554683567_2_alg».proof.Proof.RefValue
import Idealize.ShloMosaic.Adequacy
import Idealize.ShloMosaic.Init

noncomputable section

namespace Cert.Proof

open Idealize.ShloMosaic Idealize.SL.Sem

/-- The kernel program, at the word level, runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the idealized reference: its run, the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both idealized programs, from memories that agree on the arguments, end with the gate of every element of the
    first argument as their result. -/
theorem algebraic : Cert.algebraic_KernelIdeal_ReferenceIdeal := by
  intro m ρ m' ρ' _ hagree
  refine ⟨fun c => fun i => Cert.SigmoidGate.gate (F := Ideal)
      (m ((c.tc : Thread Cert.KernelIdeal.nD Cert.KernelIdeal.τ).loc Cert.KernelIdeal.main_arg0) i),
    Cert.KernelIdeal.GateValue.run (F := Ideal) m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v8_eq, Cert.ReferenceIdeal.GateValue.ref_eq, (hagree c).1]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
